-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩

abbrev nBuf : Space → Nat
  | .hbm => 12
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .bf16⟩
  | .hbm, ⟨7, _⟩ => ⟨S1x128, .f32⟩
  | .hbm, ⟨8, _⟩ => ⟨S128x128, .f32⟩
  | .hbm, ⟨9, _⟩ => ⟨S128x128, .bf16⟩
  | .hbm, ⟨10, _⟩ => ⟨S1x128, .f32⟩
  | .hbm, ⟨11, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x128_S128x128_1_0 : S128x128.Transposes [1, 0] S128x128
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .i1⟩
  | .hbm, ⟨13, _⟩ => ⟨S_, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S128x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Mlp.lean ====
/-
  The function both programs compute, on the extended reals: a two-layer perceptron applied to every row of `u`,

      out(r, j) = Σ_k leaky (Σ_l u(r, l) · W1(k, l) + b1(k)) · W2(j, k) + b2(j),

  where `leaky x` is `x` when `x ≥ 0` and `c · x` otherwise, `c` the binary32 number nearest 0.2 (the same
  word in both programs, never evaluated). It is written as the composition `affine ∘ leaky ∘ affine` for any number
  of rows `n`, so that the same definition reads a block of rows and the whole array; `mlp_row` says that a row of
  the result depends on that row of `u` only, which is what lets a block of the result be computed from the block
  of `u` alone. No law of arithmetic beyond the definitions is used anywhere: the two programs form the same sums
  of the same products, so nothing here needs the inputs to be finite.
-/
import Idealize.ShloMosaic.PureOps.Ideal
import Idealize.ShloMosaic.Lib.ValueIdx

noncomputable section

namespace Cert.Mlp

open Idealize.ShloMosaic Idealize.ShloMosaic.ValueIdx

/-- Matrices with `n` rows of 128 entries, square 128 × 128 weight matrices, and bias vectors of 128 entries. -/
abbrev Rows (n : Nat) : Shape := ⟨2, ![n, 128]⟩
abbrev Sq : Shape := ⟨2, ![128, 128]⟩
abbrev Vec128 : Shape := ⟨1, ![128]⟩

/-- The leaky rectifier: `x` where `x ≥ 0`, the slope times `x` elsewhere. -/
def leaky (x : EReal) : EReal :=
  Scalar.select (Ideal.cmp .oge x (Ideal.ofBits .f32 0x00000000#32)) x (Ideal.ofBits .f32 0x3E4CCCCD#32 * x)

/-- One linear layer, `a · wᵀ + b`: entry `(r, j)` is `Σ_k a(r, k) · w(j, k) + b(j)`. -/
def affine {n : Nat} (a : (Rows n).Idx → EReal) (w : Sq.Idx → EReal) (b : Vec128.Idx → EReal) : (Rows n).Idx → EReal :=
  fun i => (∑ k : Fin 128, a (ix2 (i 0) k) * w (ix2 (i 1) k)) + b (ix1 (i 1))

/-- The hidden layer: the first linear layer, rectified. -/
def hidden {n : Nat} (u : (Rows n).Idx → EReal) (w1 : Sq.Idx → EReal) (b1 : Vec128.Idx → EReal) : (Rows n).Idx → EReal :=
  fun i => leaky (affine u w1 b1 i)

/-- The perceptron: the second linear layer of the hidden layer. -/
def mlp {n : Nat} (u : (Rows n).Idx → EReal) (w1 : Sq.Idx → EReal) (b1 : Vec128.Idx → EReal) (w2 : Sq.Idx → EReal)
    (b2 : Vec128.Idx → EReal) : (Rows n).Idx → EReal :=
  affine (hidden u w1 b1) w2 b2

theorem affine_apply {n : Nat} (a : (Rows n).Idx → EReal) (w : Sq.Idx → EReal) (b : Vec128.Idx → EReal) (r : Fin n) (j : Fin 128) :
    affine a w b (ix2 r j) = (∑ k : Fin 128, a (ix2 r k) * w (ix2 j k)) + b (ix1 j) := rfl

theorem mlp_apply {n : Nat} (u : (Rows n).Idx → EReal) (w1 : Sq.Idx → EReal) (b1 : Vec128.Idx → EReal) (w2 : Sq.Idx → EReal)
    (b2 : Vec128.Idx → EReal) (r : Fin n) (j : Fin 128) :
    mlp u w1 b1 w2 b2 (ix2 r j)
      = (∑ k : Fin 128, leaky ((∑ l : Fin 128, u (ix2 r l) * w1 (ix2 k l)) + b1 (ix1 k)) * w2 (ix2 j k)) + b2 (ix1 j) := rfl

/-- A row of the result depends on that row of `u` only: if row `r` of `u` is row `r'` of `u'`, the two results
    agree on those rows, column by column. -/
theorem mlp_row {n n' : Nat} (u : (Rows n).Idx → EReal) (u' : (Rows n').Idx → EReal) (w1 : Sq.Idx → EReal) (b1 : Vec128.Idx → EReal)
    (w2 : Sq.Idx → EReal) (b2 : Vec128.Idx → EReal) (r : Fin n) (r' : Fin n') (h : ∀ l : Fin 128, u (ix2 r l) = u' (ix2 r' l))
    (j : Fin 128) : mlp u w1 b1 w2 b2 (ix2 r j) = mlp u' w1 b1 w2 b2 (ix2 r' j) := by
  rw [mlp_apply, mlp_apply]
  simp only [h]

end Cert.Mlp

end
-- ==== Proof.KernelBlock.lean ====
/-
  What the kernel body stores for one block of 10000 rows, on the extended reals: the perceptron of `Mlp.lean` applied
  to the block. The body multiplies the block by the (already transposed) first weight matrix on the matrix unit into a
  zero accumulator, adds the bias row to every row, rectifies, multiplies by the (already transposed) second weight
  matrix and adds the second bias row. On the extended reals a change of float format is the identity and a matrix
  product into a zero accumulator is the plain sum of products, so entry `(p, q)` of the stored value is

      Σ_k leaky (Σ_l x(p, l) · a(l, k) + r(0, k)) · a'(k, q) + r'(0, q),

  which is `mlp x w1 b1 w2 b2 (p, q)` as soon as `a`, `a'` are the transposes of `w1`, `w2` and `r`, `r'` the
  one-row forms of `b1`, `b2` (hypotheses here; the host operations in front of the kernel provide them).
-/
import proofs.«142460_g30253749633090_cont_9to1_1439_11_alg».proof.Proof.Gen.KernelIdeal.Skeleton
import proofs.«142460_g30253749633090_cont_9to1_1439_11_alg».proof.Proof.Mlp
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.Mlp

/-- The dimension record of both of the body's matrix products: rows × 128 times 128 × 128, contracting the first
    operand's columns with the second operand's rows. -/
abbrev dims := dot_S10000x128_S128x128_S10000x128_1_0_0_1_n_n

/-! ## The operand indices of the product at an output index -/

theorem lhs_row (i : S10000x128.Idx) (q : dims.contr.Idx) : (dims.lhsIdx i q 0).val = (i 0).val := by
  unfold DotDims.lhsIdx
  rw [dif_neg (show ¬(0 : Fin S10000x128.rank) ∈ dims.lhsBatch by decide), dif_pos (show (0 : Fin S10000x128.rank) ∈ dims.lhsNonContracting by decide)]
  rfl

theorem lhs_col (i : S10000x128.Idx) (q : dims.contr.Idx) : (dims.lhsIdx i q 1).val = (q ⟨0, by decide⟩).val :=
  dims.lhsIdx_val_of_single rfl i q

theorem rhs_row (i : S10000x128.Idx) (q : dims.contr.Idx) : (dims.rhsIdx i q 0).val = (q ⟨0, by decide⟩).val :=
  dims.rhsIdx_val_of_single rfl i q

theorem rhs_col (i : S10000x128.Idx) (q : dims.contr.Idx) : (dims.rhsIdx i q 1).val = (i 1).val := by
  unfold DotDims.rhsIdx
  rw [dif_neg (show ¬(1 : Fin S128x128.rank) ∈ dims.rhsBatch by decide), dif_pos (show (1 : Fin S128x128.rank) ∈ dims.rhsNonContracting by decide)]
  rfl

/-- The matrix product into a zero accumulator, read at `(p, q)`: the sum over `k` of `A(p, k) · B(k, q)`. -/
theorem matmul_at (A : FVec Ideal S10000x128 .bf16) (B : FVec Ideal S128x128 .bf16) (p : Fin 10000) (q : Fin 128) :
    matmul dims none A B (constant S10000x128 .f32 0x00000000#32) (ix2 p q) = ∑ k : Fin 128, A (ix2 p k) * B (ix2 k q) := by
  show FloatOps.matmul dims none A B (constant S10000x128 .f32 0x00000000#32) (ix2 p q) = _
  rw [Ideal.matmul_constant_zero_apply, ← Equiv.sum_comp (ValueIdx.contrEquiv1 dims 128 rfl rfl).symm]
  refine Finset.sum_congr rfl fun k _ => ?_
  have hk := ValueIdx.contrEquiv1_symm_val dims 128 rfl rfl k
  have el : dims.lhsIdx (ix2 p q) ((ValueIdx.contrEquiv1 dims 128 rfl rfl).symm k) = ix2 p k := funext fun a => Fin.ext (by
    match a with
    | ⟨0, _⟩ => exact lhs_row _ _
    | ⟨1, _⟩ => exact (lhs_col _ _).trans hk)
  have er : dims.rhsIdx (ix2 p q) ((ValueIdx.contrEquiv1 dims 128 rfl rfl).symm k) = ix2 k q := funext fun a => Fin.ext (by
    match a with
    | ⟨0, _⟩ => exact (rhs_row _ _).trans hk
    | ⟨1, _⟩ => exact rhs_col _ _)
  rw [el, er]

/-- A one-row matrix laid along every one of the 10000 rows, read at `(p, q)`: the row at `q`. -/
theorem row_at (r : FVec Ideal S1x128 .f32) (p : Fin 10000) (q : Fin 128) :
    broadcastTo S10000x128 (shapeCast S1x128 r shapeCasts_S1x128_S1x128) broadcasts_S1x128_S10000x128 (ix2 p q) = r (ix2 (0 : Fin 1) q) := by
  rw [shapeCast_self]
  exact broadcastTo_1b_ab_apply r broadcasts_S1x128_S10000x128 p q

/-- One layer of the body at `(p, q)`: the product with the stored (transposed) weights plus the bias row. -/
theorem layer_at (A : FVec Ideal S10000x128 .bf16) (B : FVec Ideal S128x128 .bf16) (r : FVec Ideal S1x128 .f32) (p : Fin 10000) (q : Fin 128) :
    addf (matmul dims none A (shapeCast S128x128 B shapeCasts_S128x128_S128x128) (constant S10000x128 .f32 0x00000000#32))
        (broadcastTo S10000x128 (shapeCast S1x128 r shapeCasts_S1x128_S1x128) broadcasts_S1x128_S10000x128) (ix2 p q)
      = (∑ k : Fin 128, A (ix2 p k) * B (ix2 k q)) + r (ix2 (0 : Fin 1) q) := by
  rw [addf_apply, shapeCast_self B, matmul_at, row_at]

/-- THE BLOCK'S VALUE: what the body stores is the perceptron of the block, given that the stored weight matrices are
    the transposes of `w1`, `w2` and the stored bias rows the one-row forms of `b1`, `b2`. -/
theorem payload_eq (x : FVec Ideal S10000x128 .f32) (a : FVec Ideal S128x128 .bf16) (r : FVec Ideal S1x128 .f32)
    (a' : FVec Ideal S128x128 .bf16) (r' : FVec Ideal S1x128 .f32)
    (w1 w2 : Sq.Idx → EReal) (b1 b2 : Vec128.Idx → EReal)
    (ha : ∀ l k : Fin 128, a (ix2 l k) = w1 (ix2 k l)) (hr : ∀ k : Fin 128, r (ix2 (0 : Fin 1) k) = b1 (ix1 k))
    (ha' : ∀ k j : Fin 128, a' (ix2 k j) = w2 (ix2 j k)) (hr' : ∀ j : Fin 128, r' (ix2 (0 : Fin 1) j) = b2 (ix1 j)) :
    k0_pay1 (F := Ideal) x a r a' r' = mlp (n := 10000) x w1 b1 w2 b2 := by
  funext i
  obtain ⟨p, q, rfl⟩ : ∃ (p : Fin 10000) (q : Fin 128), i = ix2 p q := ⟨i 0, i 1, eq_ix2 i⟩
  unfold k0_pay1
  rw [layer_at, mlp_apply, hr']
  refine congrArg (· + b2 (ix1 q)) (Finset.sum_congr rfl fun k _ => ?_)
  rw [ha' k q]
  refine congrArg (· * w2 (ix2 q k)) ?_
  rw [truncf_apply, select_apply, cmpf_apply, mulf_apply, broadcast_apply, broadcast_apply, layer_at, hr]
  simp only [truncf_apply, ha]
  rfl

end Cert.KernelIdeal.Block

end
-- ==== Proof.HostPrefix.lean ====
/-
  What the kernel finds in the four arrays the host prepares in front of it, on the extended reals. The host transposes
  each weight matrix and narrows it to bf16 (a change of format: the identity here), and reshapes each bias vector of 128
  entries into a one-row matrix. So the prepared first weight matrix at `(l, k)` is `W1(k, l)`, the prepared bias row at
  `(0, k)` is `b1(k)`, and the same for the second layer.
-/
import proofs.«142460_g30253749633090_cont_9to1_1439_11_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Prefix

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ)

/-- The prepared first weight matrix: the transpose of `W1`, narrowed. -/
theorem weights1 (c : Dev nD) : (V m c main_v1 : S128x128.Idx → EReal)
    = truncf (F := Ideal) .bf16 (transpose S128x128 [1, 0] (m ((c : Thread nD τ).loc main_arg1)) transposes_S128x128_S128x128_1_0) bitsLt_bf16_f32 := by
  dsimp only [Gen.V, Gen.hostOps0]; after_results <;> rfl

/-- The prepared second weight matrix: the transpose of `W2`, narrowed. -/
theorem weights2 (c : Dev nD) : (V m c main_v4 : S128x128.Idx → EReal)
    = truncf (F := Ideal) .bf16 (transpose S128x128 [1, 0] (m ((c : Thread nD τ).loc main_arg3)) transposes_S128x128_S128x128_1_0) bitsLt_bf16_f32 := by
  dsimp only [Gen.V, Gen.hostOps0]; after_results <;> rfl

/-- The prepared first bias row: `b1` as a one-row matrix. -/
theorem bias1 (c : Dev nD) : (V m c main_v2 : S1x128.Idx → EReal)
    = shapeCast S1x128 (m ((c : Thread nD τ).loc main_arg2) : S128.Idx → EReal) shapeCasts_S128_S1x128 := by
  dsimp only [Gen.V, Gen.hostOps0]; after_results <;> rfl

/-- The prepared second bias row: `b2` as a one-row matrix. -/
theorem bias2 (c : Dev nD) : (V m c main_v5 : S1x128.Idx → EReal)
    = shapeCast S1x128 (m ((c : Thread nD τ).loc main_arg4) : S128.Idx → EReal) shapeCasts_S128_S1x128 := by
  dsimp only [Gen.V, Gen.hostOps0]; after_results <;> rfl

/-- Entry `(l, k)` of the prepared first weight matrix is `W1(k, l)`. -/
theorem weights1_at (c : Dev nD) (l k : Fin 128) : V m c main_v1 (ix2 l k) = m ((c : Thread nD τ).loc main_arg1) (ix2 k l) := by
  rw [weights1, truncf_apply]
  exact transpose_ix2_apply _ _ l k

/-- Entry `(k, j)` of the prepared second weight matrix is `W2(j, k)`. -/
theorem weights2_at (c : Dev nD) (k j : Fin 128) : V m c main_v4 (ix2 k j) = m ((c : Thread nD τ).loc main_arg3) (ix2 j k) := by
  rw [weights2, truncf_apply]
  exact transpose_ix2_apply _ _ k j

/-- Entry `(0, k)` of the prepared first bias row is `b1(k)`. -/
theorem bias1_at (c : Dev nD) (u : Fin 1) (k : Fin 128) : V m c main_v2 (ix2 u k) = m ((c : Thread nD τ).loc main_arg2) (ix1 k) := by
  rw [bias1]
  exact shapeCast_a_1a_apply _ _ u k

/-- Entry `(0, j)` of the prepared second bias row is `b2(j)`. -/
theorem bias2_at (c : Dev nD) (u : Fin 1) (j : Fin 128) : V m c main_v5 (ix2 u j) = m ((c : Thread nD τ).loc main_arg4) (ix1 j) := by
  rw [bias2]
  exact shapeCast_a_1a_apply _ _ u j

end Cert.KernelIdeal.Prefix

end
-- ==== Proof.KernelValue.lean ====
/-
  The kernel's result array, on the extended reals: the perceptron of `Mlp.lean` of the five arguments. The grid has ten
  points; point `t` reads rows `10000·t … 10000·t + 9999` of `u`, the whole of the four prepared arrays, and writes the
  same rows of the result. What it writes is the perceptron of its block of `u` (`KernelBlock.lean`, with the prepared
  arrays read as in `HostPrefix.lean`), and since a row of the perceptron depends on that row of `u` only, this is the
  block of the perceptron of the whole `u`. The ten blocks cover the array (row `r` lies in block `r / 10000`), so the
  array ends holding the perceptron everywhere.
-/
import proofs.«142460_g30253749633090_cont_9to1_1439_11_alg».proof.Proof.Gen.KernelIdeal.Value
import proofs.«142460_g30253749633090_cont_9to1_1439_11_alg».proof.Proof.KernelBlock
import proofs.«142460_g30253749633090_cont_9to1_1439_11_alg».proof.Proof.HostPrefix
import proofs.«142460_g30253749633090_cont_9to1_1439_11_alg».proof.Proof.Mlp
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
  Idealize.ShloMosaic.ValueIdx Cert.Mlp
open Idealize.ShloMosaic.Pipeline (Dat)

variable (m : (ℓ : Loc nD τ sig) → Buf (Elt Ideal) ℓ) (ρ : Dev nD → PrngReg)

/-- The perceptron of the arguments as launched. -/
abbrev result (c : Dev nD) : S100000x128.Idx → EReal :=
  mlp (n := 100000) (m ((c : Thread nD τ).loc main_arg0)) (m ((c : Thread nD τ).loc main_arg1)) (m ((c : Thread nD τ).loc main_arg2))
    (m ((c : Thread nD τ).loc main_arg3)) (m ((c : Thread nD τ).loc main_arg4))

theorem zero_offsets : (![0, 0] : Fin 2 → Nat) = fun _ => 0 := funext fun a => by fin_cases a <;> rfl

/-- The block indices at a grid point: the windows of `u` and of the result are at block row `t`, the four prepared
    arrays at block `(0, 0)` (decided over the ten points). -/
theorem block_indices : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The input blocks at a point, read where they sit in their arrays -/

/-- Row `p` of the block of `u` at point `t` is row `10000·t + p` of `u`. -/
theorem u_block_at (c : Dev nD) (t : Fin cfg0.N) (p : Fin 10000) (l : Fin 128) (r : Fin 100000) (hr : r.val = 10000 * t.val + p.val) :
    (iblk m c 0 t : Vec Ideal S10000x128 .f32) (ix2 p l) = m ((c : Thread nD τ).loc main_arg0) (ix2 r l) := by
  obtain ⟨e0, e1, -⟩ := block_indices t
  unfold iblk
  rw [View.read_apply]
  show V m c main_arg0 _ = m (c.tc.loc main_arg0) _
  rw [V_main_arg0]
  refine congrArg (m ((c : Thread nD τ).loc main_arg0)) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * l.val = l.val; rw [e1]; omega

/-- The block of the prepared first weight matrix is the whole matrix. -/
theorem w1_block_at (c : Dev nD) (t : Fin cfg0.N) (l k : Fin 128) :
    (iblk m c 1 t : Vec Ideal S128x128 .bf16) (ix2 l k) = V m c main_v1 (ix2 l k) := by
  obtain ⟨-, -, -, -, e0, e1, -⟩ := block_indices t
  unfold iblk
  rw [View.read_apply]
  show V m c main_v1 _ = V m c main_v1 _
  refine congrArg (V m c main_v1) (funext fun a => Fin.ext ?_)
  match a with
  | ⟨0, _⟩ => show win0_1.index t (0 : Fin 2) * 128 + 1 * l.val = l.val; rw [e0]; omega
  | ⟨1, _⟩ => show win0_1.index t (1 : Fin 2) * 128 + 1 * k.val = k.val; rw [e1]; omega

/-- The block of the prepared first bias row is the whole row. -/
theorem b1_block_at (c : Dev nD) (t : Fin cfg0.N) (u : Fin 1) (k : Fin 128) :
    (iblk m c 2 t : Vec Ideal S1x128 .f32) (ix2 u k) = V m c main_v2 (ix2 u k) := by
  obtain ⟨-, -, -, -, -, -, e0, e1, -⟩ := block_indices t
  unfold iblk
  rw [View.read_apply]
  show V m c main_v2 _ = V m c main_v2 _
  refine congrArg (V m c main_v2) (funext fun a => Fin.ext ?_)
  match a with
  | ⟨0, _⟩ => show win0_2.index t (0 : Fin 2) * 1 + 1 * u.val = u.val; rw [e0]; omega
  | ⟨1, _⟩ => show win0_2.index t (1 : Fin 2) * 128 + 1 * k.val = k.val; rw [e1]; omega

/-- The block of the prepared second weight matrix is the whole matrix. -/
theorem w2_block_at (c : Dev nD) (t : Fin cfg0.N) (k j : Fin 128) :
    (iblk m c 3 t : Vec Ideal S128x128 .bf16) (ix2 k j) = V m c main_v4 (ix2 k j) := by
  obtain ⟨-, -, -, -, -, -, -, -, e0, e1, -⟩ := block_indices t
  unfold iblk
  rw [View.read_apply]
  show V m c main_v4 _ = V m c main_v4 _
  refine congrArg (V m c main_v4) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- The block of the prepared second bias row is the whole row. -/
theorem b2_block_at (c : Dev nD) (t : Fin cfg0.N) (u : Fin 1) (j : Fin 128) :
    (iblk m c 4 t : Vec Ideal S1x128 .f32) (ix2 u j) = V m c main_v5 (ix2 u j) := by
  obtain ⟨-, -, -, -, -, -, -, -, -, -, e0, e1⟩ := block_indices t
  unfold iblk
  rw [View.read_apply]
  show V m c main_v5 _ = V m c main_v5 _
  refine congrArg (V m c main_v5) (funext fun a => Fin.ext ?_)
  match a with
  | ⟨0, _⟩ => show win0_4.index t (0 : Fin 2) * 1 + 1 * u.val = u.val; rw [e0]; omega
  | ⟨1, _⟩ => show win0_4.index t (1 : Fin 2) * 128 + 1 * j.val = j.val; rw [e1]; omega

/-! ## What a point writes back -/

/-- WHAT POINT `t` WRITES BACK is block `t` of the perceptron of the arguments. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zero_offsets]
  simp only [View.ld_unit_zero (S := S10000x128) zero_offsets, View.ld_unit_zero (S := S128x128) zero_offsets,
    View.ld_unit_zero (S := S1x128) zero_offsets]
  rw [Cert.KernelIdeal.Block.payload_eq (iblk m c 0 t) (iblk m c 1 t) (iblk m c 2 t) (iblk m c 3 t) (iblk m c 4 t)
    (m ((c : Thread nD τ).loc main_arg1)) (m ((c : Thread nD τ).loc main_arg3))
    (m ((c : Thread nD τ).loc main_arg2)) (m ((c : Thread nD τ).loc main_arg4))
    (fun l k => (w1_block_at m c t l k).trans (Cert.KernelIdeal.Prefix.weights1_at m c l k))
    (fun k => (b1_block_at m c t 0 k).trans (Cert.KernelIdeal.Prefix.bias1_at m c 0 k))
    (fun k j => (w2_block_at m c t k j).trans (Cert.KernelIdeal.Prefix.weights2_at m c k j))
    (fun j => (b2_block_at m c t 0 j).trans (Cert.KernelIdeal.Prefix.bias2_at m c 0 j))]
  obtain ⟨-, -, e0, e1, -⟩ := block_indices t
  have hN : cfg0.N = 10 := N_0
  have ht : t.val < 10 := hN ▸ t.isLt
  refine funext fun (j : S10000x128.Idx) => ?_
  obtain ⟨p, q, rfl⟩ : ∃ (p : Fin 10000) (q : Fin 128), j = ix2 p q := ⟨j 0, j 1, eq_ix2 j⟩
  have hp : p.val < 10000 := p.isLt
  show mlp (n := 10000) (iblk m c 0 t) _ _ _ _ (ix2 p q) = result m c (((cfg0.win 5).blk t).view.emb (ix2 p q))
  have hemb : ((cfg0.win 5).blk t).view.emb (ix2 p q) = ix2 (⟨10000 * t.val + p.val, by omega⟩ : Fin 100000) q :=
    funext fun a => Fin.ext (by
      match a with
      | ⟨0, _⟩ => show win0_5.index t (0 : Fin 2) * 10000 + 1 * p.val = 10000 * t.val + p.val; rw [e0]; omega
      | ⟨1, _⟩ => show win0_5.index t (1 : Fin 2) * 128 + 1 * q.val = q.val; rw [e1]; omega)
  rw [hemb]
  exact mlp_row _ _ _ _ _ _ p _ (fun l => u_block_at m c t p l _ rfl) q

/-! ## The blocks cover the array -/

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v6).slice (win0_5.rect t)).set ↔ _
  rw [View.set_slice_whole, Rect.mem_set_unit]
  exact Iff.rfl

/-- Row `r` of the result lies in the block of point `r / 10000`, and every point writes its block back. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, e0, e1, -⟩ := block_indices t
  have e0' : win0_5.index t (0 : Fin 2) = (i 0).val / 10000 := e0
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; rw [e0']; omega
  | ⟨1, _⟩ => show win0_5.index t (1 : Fin 2) * 128 ≤ (i 1).val ∧ (i 1).val < win0_5.index t (1 : Fin 2) * 128 + 128; rw [e1]; omega

/-- THE RESULT ARRAY after the run is the perceptron of the arguments. -/
theorem final (c : Dev nD) : (dats m 0 c).arrAt 5 cfg0.N = result m c :=
  (dats m 0 c).arrAt_eq_of_cover 5 (result m c) (fun t _ => flushed_eq m c t) cover

/-- The kernel's run: it terminates with the result array at the perceptron of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference computes the perceptron of `Mlp.lean` on the whole array. Its operations, read one at a time at an
  index: the first product contracts row `r` of `u` with column `k` of the transposed first weight matrix, that is
  with row `k` of `W1`; the bias vector is laid along every row; the rectifier compares with the zero word and
  multiplies by the slope word; the second layer repeats the first with `W2`, `b2`. Index by index this is the
  definition of `mlp` (the sums are literally the same sums), so no arithmetic is needed.
-/
import proofs.«142460_g30253749633090_cont_9to1_1439_11_alg».proof.Proof.Gen.ReferenceIdeal.Read
import proofs.«142460_g30253749633090_cont_9to1_1439_11_alg».proof.Proof.Mlp
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Mlp

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal))

/-! ## The operations' index maps at an index written by coordinates -/

theorem transposed_idx (a b : Fin 128) : idx_main_v0 (ix2 a b) = ix2 b a :=
  funext fun d => match d with | ⟨0, _⟩ => rfl | ⟨1, _⟩ => rfl

theorem dot_lhs_idx (r : Fin 100000) (j k : Fin 128) : lidx_main_v1 (ix2 r j) k = ix2 r k :=
  funext fun d => match d with | ⟨0, _⟩ => rfl | ⟨1, _⟩ => rfl

theorem dot_rhs_idx (r : Fin 100000) (j k : Fin 128) : ridx_main_v1 (ix2 r j) k = ix2 k j :=
  funext fun d => match d with | ⟨0, _⟩ => rfl | ⟨1, _⟩ => rfl

theorem row_idx (r : Fin 100000) (j : Fin 128) : idx_main_v3 (ix2 r j) = ix2 (0 : Fin 1) j :=
  funext fun d => match d with | ⟨0, _⟩ => rfl | ⟨1, _⟩ => rfl

theorem vec_idx (u : Fin 1) (j : Fin 128) : idx_main_v2 (ix2 u j) = ix1 j :=
  funext fun d => match d with | ⟨0, _⟩ => rfl

/-- The first linear layer at `(r, k)`: row `r` of `u` against row `k` of `W1`, plus `b1(k)`. -/
theorem layer1_at (r : Fin 100000) (k : Fin 128) :
    val_main_v4 (F := Ideal) x0 x1 x2 (ix2 r k) = (∑ l : Fin 128, x0 (ix2 r l) * x1 (ix2 k l)) + x2 (ix1 k) := by
  rw [val_main_v4_apply, val_main_v1_apply, val_main_v3_apply, val_main_v2_apply, row_idx, vec_idx]
  simp only [dot_lhs_idx, dot_rhs_idx, val_main_v0_apply, transposed_idx]
  rfl

/-- The hidden layer at `(r, k)`: the first layer rectified. -/
theorem hidden_at (r : Fin 100000) (k : Fin 128) :
    val_main_v9 (F := Ideal) x0 x1 x2 (ix2 r k) = leaky ((∑ l : Fin 128, x0 (ix2 r l) * x1 (ix2 k l)) + x2 (ix1 k)) := by
  rw [val_main_v9_apply, val_main_v6_apply, val_main_v8_apply, val_main_v5_apply, val_main_v7_apply, val_main_cst_apply,
    val_main_cst_0_apply, layer1_at]
  rfl

/-- THE REFERENCE'S VALUE is the perceptron of its arguments. -/
theorem val_eq_mlp : val_main_v14 (F := Ideal) x0 x1 x2 x3 x4 = mlp (n := 100000) x0 x1 x2 x3 x4 := by
  funext i
  obtain ⟨r, j, rfl⟩ : ∃ (r : Fin 100000) (j : Fin 128), i = ix2 r j := ⟨i 0, i 1, eq_ix2 i⟩
  rw [val_main_v14_apply, val_main_v11_apply, val_main_v13_apply, val_main_v12_apply, mlp_apply]
  have e1 : idx_main_v12 (idx_main_v13 (ix2 r j)) = ix1 j := funext fun d => match d with | ⟨0, _⟩ => rfl
  have e2 : ∀ k : Fin 128, lidx_main_v11 (ix2 r j) k = ix2 r k := fun k => funext fun d => match d with | ⟨0, _⟩ => rfl | ⟨1, _⟩ => rfl
  have e3 : ∀ k : Fin 128, idx_main_v10 (ridx_main_v11 (ix2 r j) k) = ix2 j k := fun k => funext fun d => match d with | ⟨0, _⟩ => rfl | ⟨1, _⟩ => rfl
  rw [e1]
  simp only [e2, val_main_v10_apply, e3, hidden_at]
  rfl

end Cert.ReferenceIdeal.RefValue

end
-- ==== Proof.lean ====
/-
  The kernel and its reference compute the same two-layer perceptron of every row of `u`,

      out(r, j) = Σ_k leaky (Σ_l u(r, l) · W1(k, l) + b1(k)) · W2(j, k) + b2(j),

  `leaky x = x` for `x ≥ 0` and `c · x` otherwise, `c` the binary32 number nearest 0.2 (one word, shared by both
  programs). The kernel streams `u` in ten blocks of 10000 rows; the host transposes the weight matrices and narrows
  them to bf16 in front of it, the body narrows `u` and the hidden layer to bf16 on the way into the matrix unit, and
  accumulates each product into a zero matrix. On the extended reals a change of float format is the identity and a
  product into zero is the plain sum of products, so block by block the kernel forms exactly the sums the reference
  forms on the whole array: the two results are equal index by index with no law of arithmetic beyond the definitions,
  and the precondition (finite inputs) is never used.

  `Proof/Mlp.lean` states the function; `Proof/KernelBlock.lean` reads the body's stored value as that function of a
  block; `Proof/HostPrefix.lean` reads the arrays the host prepares; `Proof/KernelValue.lean` puts the ten blocks
  together into the kernel's result array; `Proof/RefValue.lean` reads the reference's operations as the same function.
  The three frames are the generated runs; the idealization rewrote nothing, so `preserves` has nothing to show.
-/
import proofs.«142460_g30253749633090_cont_9to1_1439_11_alg».proof.Defs
import proofs.«142460_g30253749633090_cont_9to1_1439_11_alg».proof.Proof.Gen.Kernel
import proofs.«142460_g30253749633090_cont_9to1_1439_11_alg».proof.Proof.Gen.Kernel.Skeleton
import proofs.«142460_g30253749633090_cont_9to1_1439_11_alg».proof.Proof.Gen.Kernel.Launch
import proofs.«142460_g30253749633090_cont_9to1_1439_11_alg».proof.Proof.Gen.Kernel.Points
import proofs.«142460_g30253749633090_cont_9to1_1439_11_alg».proof.Proof.Gen.Kernel.Frame
import proofs.«142460_g30253749633090_cont_9to1_1439_11_alg».proof.Proof.Gen.KernelIdeal
import proofs.«142460_g30253749633090_cont_9to1_1439_11_alg».proof.Proof.Gen.KernelIdeal.Skeleton
import proofs.«142460_g30253749633090_cont_9to1_1439_11_alg».proof.Proof.Gen.KernelIdeal.Launch
import proofs.«142460_g30253749633090_cont_9to1_1439_11_alg».proof.Proof.Gen.KernelIdeal.Points
import proofs.«142460_g30253749633090_cont_9to1_1439_11_alg».proof.Proof.Gen.KernelIdeal.Frame
import proofs.«142460_g30253749633090_cont_9to1_1439_11_alg».proof.Proof.Gen.ReferenceIdeal
import proofs.«142460_g30253749633090_cont_9to1_1439_11_alg».proof.Proof.Gen.Pre_finite_inputs
import proofs.«142460_g30253749633090_cont_9to1_1439_11_alg».proof.Proof.Gen.KernelIdeal.Value
import proofs.«142460_g30253749633090_cont_9to1_1439_11_alg».proof.Proof.Gen.ReferenceIdeal.Run
import proofs.«142460_g30253749633090_cont_9to1_1439_11_alg».proof.Proof.Gen.ReferenceIdeal.Read
import proofs.«142460_g30253749633090_cont_9to1_1439_11_alg».proof.Proof.KernelValue
import proofs.«142460_g30253749633090_cont_9to1_1439_11_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and leaves its arguments as they were: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the five arguments, the kernel's result array and the
    reference's both end at the perceptron of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.val_eq_mlp, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
